-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x10 .f32) (main_arg12 : FVec F S10 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x10 .f32 := Host.absf main_arg11
  let main_cst_16 : FVec F S_ .f32 := constant S_ .f32 0x7F800000#32
  let main_v45 : FVec F S32x10 .f32 := broadcastInDim S32x10 ![] bcast_S_S32x10 main_cst_16
  let main_v46 : IVec S32x10 1 := cmpf .olt main_v44 main_v45
  let main_c_17 : IVec S_ 1 := constantI S_ 1 1#1
  let main_v47 : IVec S_ 1 := (fun x v => Host.reduce IntOp.andi x v reducesTo_S32x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x64 .f32) (main_arg8 : FVec F S64 .f32) (main_arg9 : FVec F S64x32 .f32) (main_arg10 : FVec F S32 .f32) (main_arg11 : FVec F S32x10 .f32) (main_arg12 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x32 .f32) (main_arg10 : FVec F S32 .f32) (main_arg11 : FVec F S32x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩
abbrev S100x64 : Shape := ⟨2, ![100, 64]⟩
abbrev S50000x1 : Shape := ⟨2, ![50000, 1]⟩
abbrev S100 : Shape := ⟨1, ![100]⟩
abbrev S100x1 : Shape := ⟨2, ![100, 1]⟩
abbrev S100x32 : Shape := ⟨2, ![100, 32]⟩
abbrev S1x32 : Shape := ⟨2, ![1, 32]⟩
abbrev S100x10 : Shape := ⟨2, ![100, 10]⟩
abbrev S1x10 : Shape := ⟨2, ![1, 10]⟩

abbrev nBuf : Space → Nat
  | .hbm => 149
  | .vmem => 15
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x1, .f32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x64, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x64, .f32⟩
  | 109 => ⟨S850000x1, .f32⟩
  | 110 => ⟨S850000x64, .f32⟩
  | 111 => ⟨S850000x64, .f32⟩
  | 112 => ⟨S_, .f32⟩
  | 113 => ⟨S50000x64, .f32⟩
  | 114 => ⟨S850000x1, .i32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .f32⟩
  | 123 => ⟨S100x64, .f32⟩
  | 124 => ⟨S50000x1, .i32⟩
  | 125 => ⟨S100x64, .f32⟩
  | 126 => ⟨S_, .f32⟩
  | 127 => ⟨S50000, .f32⟩
  | _ => ⟨S50000x128, .f32⟩

abbrev hbmTy0_1 (i : Nat) : BufTy := match i % 128 with
  | 0 => ⟨S_, .f32⟩
  | 1 => ⟨S100, .f32⟩
  | 2 => ⟨S50000x1, .i32⟩
  | 3 => ⟨S100, .f32⟩
  | 4 => ⟨S_, .f32⟩
  | 5 => ⟨S100, .f32⟩
  | 6 => ⟨S100, .f32⟩
  | 7 => ⟨S100x1, .f32⟩
  | 8 => ⟨S100x64, .f32⟩
  | 9 => ⟨S100x64, .f32⟩
  | 10 => ⟨S100x32, .f32⟩
  | 11 => ⟨S1x32, .f32⟩
  | 12 => ⟨S100x32, .f32⟩
  | 13 => ⟨S100x32, .f32⟩
  | 14 => ⟨S_, .f32⟩
  | 15 => ⟨S100x32, .f32⟩
  | 16 => ⟨S100x32, .f32⟩
  | 17 => ⟨S100x10, .f32⟩
  | 18 => ⟨S1x10, .f32⟩
  | 19 => ⟨S100x10, .f32⟩
  | 20 => ⟨S100x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S100x64 : S_.BroadcastsInDim S100x64 (![] : Fin 0 → Fin S100x64.rank)
  bcast_S50000_S50000x1_0 : S50000.BroadcastsInDim S50000x1 (![0] : Fin 1 → Fin S50000x1.rank)
  bcast_S_S100 : S_.BroadcastsInDim S100 (![] : Fin 0 → Fin S100.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  bcast_S32_S1x32_1 : S32.BroadcastsInDim S1x32 (![1] : Fin 1 → Fin S1x32.rank)
  bcast_S1x32_S100x32_0_1 : S1x32.BroadcastsInDim S100x32 (![0, 1] : Fin 2 → Fin S100x32.rank)
  bcast_S_S100x32 : S_.BroadcastsInDim S100x32 (![] : Fin 0 → Fin S100x32.rank)
  bcast_S10_S1x10_1 : S10.BroadcastsInDim S1x10 (![1] : Fin 1 → Fin S1x10.rank)
  bcast_S1x10_S100x10_0_1 : S1x10.BroadcastsInDim S100x10 (![0, 1] : Fin 2 → Fin S100x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S100x64_S50000x1_S50000x64_1_0_0_1_wf : ScatterDims.WF S100x64 S50000x1 S50000x64 [1] [0] [0] 1
  scatter_S100_S50000x1_S50000_n_0_0_1_wf : ScatterDims.WF S100 S50000x1 S50000 [] [0] [0] 1
  dot_S100x64_S64x32_S100x32_1_0_0_1_n_n_wf : DotDims.WF S100x64 S64x32 S100x32 [1] [0] [0] [1] [] []
  dot_S100x32_S32x10_S100x10_1_0_0_1_n_n_wf : DotDims.WF S100x32 S32x10 S100x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S100x64_S50000x1_S50000x64_1_0_0_1 : ScatterDims S100x64 S50000x1 S50000x64 where
  updateWindowDims := [1]
  insertedWindowDims := [0]
  scatterDimsToOperandDims := [0]
  indexVectorDim := 1
  wf := scatter_S100x64_S50000x1_S50000x64_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S100x64_S64x32_S100x32_1_0_0_1_n_n : DotDims S100x64 S64x32 S100x32 where
  lhsContracting := [1]
  rhsContracting := [0]
  lhsNonContracting := [0]
  rhsNonContracting := [1]
  lhsBatch := []
  rhsBatch := []
  wf := dot_S100x64_S64x32_S100x32_1_0_0_1_n_n_wf
def dot_S100x32_S32x10_S100x10_1_0_0_1_n_n : DotDims S100x32 S32x10 S100x10 where
  lhsContracting := [1]
  rhsContracting := [0]
  lhsNonContracting := [0]
  rhsNonContracting := [1]
  lhsBatch := []
  rhsBatch := []
  wf := dot_S100x32_S32x10_S100x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S100x64 : Shape := ⟨2, ![100, 64]⟩
abbrev S50000x1 : Shape := ⟨2, ![50000, 1]⟩
abbrev S100 : Shape := ⟨1, ![100]⟩
abbrev S100x1 : Shape := ⟨2, ![100, 1]⟩
abbrev S100x32 : Shape := ⟨2, ![100, 32]⟩
abbrev S1x32 : Shape := ⟨2, ![1, 32]⟩
abbrev S100x10 : Shape := ⟨2, ![100, 10]⟩
abbrev S1x10 : Shape := ⟨2, ![1, 10]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x1, .f32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x64, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x64, .f32⟩
  | 109 => ⟨S850000x1, .f32⟩
  | 110 => ⟨S850000x64, .f32⟩
  | 111 => ⟨S850000x64, .f32⟩
  | 112 => ⟨S_, .f32⟩
  | 113 => ⟨S50000x64, .f32⟩
  | 114 => ⟨S850000x1, .i32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .f32⟩
  | 123 => ⟨S100x64, .f32⟩
  | 124 => ⟨S50000x1, .i32⟩
  | 125 => ⟨S100x64, .f32⟩
  | 126 => ⟨S_, .f32⟩
  | 127 => ⟨S50000, .f32⟩
  | _ => ⟨S50000x128, .f32⟩

abbrev hbmTy0_1 (i : Nat) : BufTy := match i % 128 with
  | 0 => ⟨S_, .f32⟩
  | 1 => ⟨S100, .f32⟩
  | 2 => ⟨S50000x1, .i32⟩
  | 3 => ⟨S100, .f32⟩
  | 4 => ⟨S_, .f32⟩
  | 5 => ⟨S100, .f32⟩
  | 6 => ⟨S100, .f32⟩
  | 7 => ⟨S100x1, .f32⟩
  | 8 => ⟨S100x64, .f32⟩
  | 9 => ⟨S100x64, .f32⟩
  | 10 => ⟨S100x32, .f32⟩
  | 11 => ⟨S1x32, .f32⟩
  | 12 => ⟨S100x32, .f32⟩
  | 13 => ⟨S100x32, .f32⟩
  | 14 => ⟨S_, .f32⟩
  | 15 => ⟨S100x32, .f32⟩
  | 16 => ⟨S100x32, .f32⟩
  | 17 => ⟨S100x10, .f32⟩
  | 18 => ⟨S1x10, .f32⟩
  | 19 => ⟨S100x10, .f32⟩
  | 20 => ⟨S100x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S100x64 : S_.BroadcastsInDim S100x64 (![] : Fin 0 → Fin S100x64.rank)
  bcast_S50000_S50000x1_0 : S50000.BroadcastsInDim S50000x1 (![0] : Fin 1 → Fin S50000x1.rank)
  bcast_S_S100 : S_.BroadcastsInDim S100 (![] : Fin 0 → Fin S100.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  bcast_S32_S1x32_1 : S32.BroadcastsInDim S1x32 (![1] : Fin 1 → Fin S1x32.rank)
  bcast_S1x32_S100x32_0_1 : S1x32.BroadcastsInDim S100x32 (![0, 1] : Fin 2 → Fin S100x32.rank)
  bcast_S_S100x32 : S_.BroadcastsInDim S100x32 (![] : Fin 0 → Fin S100x32.rank)
  bcast_S10_S1x10_1 : S10.BroadcastsInDim S1x10 (![1] : Fin 1 → Fin S1x10.rank)
  bcast_S1x10_S100x10_0_1 : S1x10.BroadcastsInDim S100x10 (![0, 1] : Fin 2 → Fin S100x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S100x64_S50000x1_S50000x64_1_0_0_1_wf : ScatterDims.WF S100x64 S50000x1 S50000x64 [1] [0] [0] 1
  scatter_S100_S50000x1_S50000_n_0_0_1_wf : ScatterDims.WF S100 S50000x1 S50000 [] [0] [0] 1
  dot_S100x64_S64x32_S100x32_1_0_0_1_n_n_wf : DotDims.WF S100x64 S64x32 S100x32 [1] [0] [0] [1] [] []
  dot_S100x32_S32x10_S100x10_1_0_0_1_n_n_wf : DotDims.WF S100x32 S32x10 S100x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S100x64_S50000x1_S50000x64_1_0_0_1 : ScatterDims S100x64 S50000x1 S50000x64 where
  updateWindowDims := [1]
  insertedWindowDims := [0]
  scatterDimsToOperandDims := [0]
  indexVectorDim := 1
  wf := scatter_S100x64_S50000x1_S50000x64_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S100x64_S64x32_S100x32_1_0_0_1_n_n : DotDims S100x64 S64x32 S100x32 where
  lhsContracting := [1]
  rhsContracting := [0]
  lhsNonContracting := [0]
  rhsNonContracting := [1]
  lhsBatch := []
  rhsBatch := []
  wf := dot_S100x64_S64x32_S100x32_1_0_0_1_n_n_wf
def dot_S100x32_S32x10_S100x10_1_0_0_1_n_n : DotDims S100x32 S32x10 S100x10 where
  lhsContracting := [1]
  rhsContracting := [0]
  lhsNonContracting := [0]
  rhsNonContracting := [1]
  lhsBatch := []
  rhsBatch := []
  wf := dot_S100x32_S32x10_S100x10_1_0_0_1_n_n_wf

class Facts : Prop extends Facts₀ where

variable [Facts]
-- ==== Proof.Stages.lean ====
/-
  The host computations that the kernel's program and the reference share, each stated once as a function of what it reads.
  The model is a graph network on 50000 nodes and 800000 edges: every edge list gets the 50000 self loops appended; a node's
  in-degree d counts the edges that end in it; an edge from s to t weighs d(s)^(-1/2) · d(t)^(-1/2) (zero where a degree is
  zero); a layer takes the node features already multiplied by its weight matrix, sends each edge's source row times the
  edge's weight to the edge's target, adds them up there, adds the bias and cuts at zero; the head averages the last
  layer's rows over each of the 100 graphs (dividing by at least one) and applies two small dense layers.
  The two programs differ only in how the product of the node features with a layer's weight matrix is computed, so each
  of them is these functions around three matrix products.
-/
import proofs.«172481_j54889682042891_1_alg».proof.Proof.Gen.ReferenceIdeal

noncomputable section

namespace Cert.Stages

open Cert.ReferenceIdeal Cert.ReferenceIdeal.Gen Idealize.ShloMosaic

variable {F : FTy → Type} [FloatOps F]

/-- The source node of each of the 850000 edges: the edge list's first row, then the nodes 0 … 49999 themselves. -/
def edgeSrc (x1 : (⟨S2x800000, .i32⟩ : BufTy).Contents (Elt F)) : (⟨S850000, .i32⟩ : BufTy).Contents (Elt F) :=
  concatenate S850000 0 [⟨S800000, (shapeCast _ (extractStridedSlice S1x800000 ![0, 0] x1 slices_S2x800000_S1x800000_0_0) shapeCasts_S1x800000_S800000)⟩, ⟨S50000, (iotaInDim S50000 32 0)⟩] concatenates_S800000_S50000_S850000_d0

/-- The target node of each edge: the edge list's second row, then the nodes themselves. -/
def edgeDst (x1 : (⟨S2x800000, .i32⟩ : BufTy).Contents (Elt F)) : (⟨S850000, .i32⟩ : BufTy).Contents (Elt F) :=
  concatenate S850000 0 [⟨S800000, (shapeCast _ (extractStridedSlice S1x800000 ![1, 0] x1 slices_S2x800000_S1x800000_1_0) shapeCasts_S1x800000_S800000)⟩, ⟨S50000, (iotaInDim S50000 32 0)⟩] concatenates_S800000_S50000_S850000_d0

/-- A node number read as an index: a negative one counts from the end. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The number of edges ending in each node: a one added, per edge, at the edge's target. -/
def inDegree (col : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 col) (broadcastInDim S850000 ![] bcast_S_S850000 (constant S_ .f32 0x3F800000#32))

/-- d^(-1/2) where the in-degree d is positive, zero elsewhere. -/
def invSqrtDegree (col : (⟨S850000, .i32⟩ : BufTy).Contents (Elt F)) : (⟨S50000, .f32⟩ : BufTy).Contents (Elt F) :=
  select (cmpf (F := F) .ogt (inDegree (F := F) col) (broadcastInDim S50000 ![] bcast_S_S50000 (constant S_ .f32 0x00000000#32))) (Host.rsqrt (inDegree (F := F) col)) (broadcastInDim S50000 ![] bcast_S_S50000 (id (constant S_ .f32 0x00000000#32)))

/-- Each edge's weight: the inverse square roots of the in-degrees of its source and of its target, multiplied. -/
def edgeNorm (row col : (⟨S850000, .i32⟩ : BufTy).Contents (Elt F)) : (⟨S850000, .f32⟩ : BufTy).Contents (Elt F) :=
  mulf (Host.gather gather_S50000_S850000x1_S850000_n_0_n_n_0_1_1 (invSqrtDegree (F := F) col) (broadcastInDim S850000x1 ![0] bcast_S850000_S850000x1_0 (wrap row))) (Host.gather gather_S50000_S850000x1_S850000_n_0_n_n_0_1_1 (invSqrtDegree (F := F) col) (broadcastInDim S850000x1 ![0] bcast_S850000_S850000x1_0 (wrap col)))

/-- One layer after its matrix product `d` (128 features): per edge the source's row times the edge's weight, summed at
    the target, plus the bias, cut at zero. -/
def layer128 (d : (⟨S50000x128, .f32⟩ : BufTy).Contents (Elt F)) (row col : (⟨S850000, .i32⟩ : BufTy).Contents (Elt F)) (norm : (⟨S850000, .f32⟩ : BufTy).Contents (Elt F))
    (b : (⟨S128, .f32⟩ : BufTy).Contents (Elt F)) : (⟨S50000x128, .f32⟩ : BufTy).Contents (Elt F) :=
  maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 col) (mulf (Host.gather gather_S50000x128_S850000x1_S850000x128_1_0_n_n_0_1_1128 d (broadcastInDim S850000x1 ![0] bcast_S850000_S850000x1_0 (wrap row))) (broadcastInDim S850000x128 ![0, 1] bcast_S850000x1_S850000x128_0_1 (broadcastInDim S850000x1 ![0] bcast_S850000_S850000x1_0 norm)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The same layer at 64 features. -/
def layer64 (d : (⟨S50000x64, .f32⟩ : BufTy).Contents (Elt F)) (row col : (⟨S850000, .i32⟩ : BufTy).Contents (Elt F)) (norm : (⟨S850000, .f32⟩ : BufTy).Contents (Elt F))
    (b : (⟨S64, .f32⟩ : BufTy).Contents (Elt F)) : (⟨S50000x64, .f32⟩ : BufTy).Contents (Elt F) :=
  maximumf (addf (Host.scatterAdd scatter_S50000x64_S850000x1_S850000x64_1_0_0_1 (broadcastInDim S50000x64 ![] bcast_S_S50000x64 (constant S_ .f32 0x00000000#32)) (broadcastInDim S850000x1 ![0] bcast_S850000_S850000x1_0 col) (mulf (Host.gather gather_S50000x64_S850000x1_S850000x64_1_0_n_n_0_1_164 d (broadcastInDim S850000x1 ![0] bcast_S850000_S850000x1_0 (wrap row))) (broadcastInDim S850000x64 ![0, 1] bcast_S850000x1_S850000x64_0_1 (broadcastInDim S850000x1 ![0] bcast_S850000_S850000x1_0 norm)))) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- The head: the rows of `h` averaged over each graph (the sum over the graph's nodes divided by their number, at least
    one), a dense layer cut at zero, and a last dense layer. -/
def head (h : (⟨S50000x64, .f32⟩ : BufTy).Contents (Elt F)) (x2 : (⟨S50000, .i32⟩ : BufTy).Contents (Elt F)) (x9 : (⟨S64x32, .f32⟩ : BufTy).Contents (Elt F)) (x10 : (⟨S32, .f32⟩ : BufTy).Contents (Elt F))
    (x11 : (⟨S32x10, .f32⟩ : BufTy).Contents (Elt F)) (x12 : (⟨S10, .f32⟩ : BufTy).Contents (Elt F)) : (⟨S100x10, .f32⟩ : BufTy).Contents (Elt F) :=
  addf (Host.dotGeneral dot_S100x32_S32x10_S100x10_1_0_0_1_n_n none (maximumf (addf (Host.dotGeneral dot_S100x64_S64x32_S100x32_1_0_0_1_n_n none (Host.divf (Host.scatterAdd scatter_S100x64_S50000x1_S50000x64_1_0_0_1 (broadcastInDim S100x64 ![] bcast_S_S100x64 (constant S_ .f32 0x00000000#32)) (broadcastInDim S50000x1 ![0] bcast_S50000_S50000x1_0 x2) h) (broadcastInDim S100x64 ![0, 1] bcast_S100x1_S100x64_0_1 (broadcastInDim S100x1 ![0] bcast_S100_S100x1_0 (maximumf (Host.scatterAdd scatter_S100_S50000x1_S50000_n_0_0_1 (broadcastInDim S100 ![] bcast_S_S100 (constant S_ .f32 0x00000000#32)) (broadcastInDim S50000x1 ![0] bcast_S50000_S50000x1_0 x2) (broadcastInDim S50000 ![] bcast_S_S50000 (constant S_ .f32 0x3F800000#32))) (broadcastInDim S100 ![] bcast_S_S100 (constant S_ .f32 0x3F800000#32)))))) x9) (broadcastInDim S100x32 ![0, 1] bcast_S1x32_S100x32_0_1 (broadcastInDim S1x32 ![1] bcast_S32_S1x32_1 x10))) (broadcastInDim S100x32 ![] bcast_S_S100x32 (constant S_ .f32 0x00000000#32))) x11) (broadcastInDim S100x10 ![0, 1] bcast_S1x10_S100x10_0_1 (broadcastInDim S1x10 ![1] bcast_S10_S1x10_1 x12))

/-- The whole network around a given way `P`, `P'` of multiplying the node features by a weight matrix (128 or 64
    columns). -/
def network (P : (⟨S50000x128, .f32⟩ : BufTy).Contents (Elt F) → (⟨S128x128, .f32⟩ : BufTy).Contents (Elt F) → (⟨S50000x128, .f32⟩ : BufTy).Contents (Elt F))
    (P' : (⟨S50000x128, .f32⟩ : BufTy).Contents (Elt F) → (⟨S128x64, .f32⟩ : BufTy).Contents (Elt F) → (⟨S50000x64, .f32⟩ : BufTy).Contents (Elt F))
    (x0 : (⟨S50000x128, .f32⟩ : BufTy).Contents (Elt F)) (x1 : (⟨S2x800000, .i32⟩ : BufTy).Contents (Elt F)) (x2 : (⟨S50000, .i32⟩ : BufTy).Contents (Elt F))
    (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (x7 : (⟨S128x64, .f32⟩ : BufTy).Contents (Elt F)) (x8 : (⟨S64, .f32⟩ : BufTy).Contents (Elt F)) (x9 : (⟨S64x32, .f32⟩ : BufTy).Contents (Elt F)) (x10 : (⟨S32, .f32⟩ : BufTy).Contents (Elt F))
    (x11 : (⟨S32x10, .f32⟩ : BufTy).Contents (Elt F)) (x12 : (⟨S10, .f32⟩ : BufTy).Contents (Elt F)) : (⟨S100x10, .f32⟩ : BufTy).Contents (Elt F) :=
  head (layer64 (P' (layer128 (P (layer128 (P x0 x3) (edgeSrc x1) (edgeDst x1) (edgeNorm (edgeSrc x1) (edgeDst x1)) x4) x5)
      (edgeSrc x1) (edgeDst x1) (edgeNorm (edgeSrc x1) (edgeDst x1)) x6) x7)
    (edgeSrc x1) (edgeDst x1) (edgeNorm (edgeSrc x1) (edgeDst x1)) x8) x2 x9 x10 x11 x12

/-- The host's own product of the node features with a 128-column weight matrix. -/
abbrev hostP (a : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none a w

/-- … and with the 64-column one. -/
abbrev hostP' (a : (⟨S50000x128, .f32⟩ : BufTy).Contents (Elt F)) (w : (⟨S128x64, .f32⟩ : BufTy).Contents (Elt F)) : (⟨S50000x64, .f32⟩ : BufTy).Contents (Elt F) :=
  Host.dotGeneral dot_S50000x128_S128x64_S50000x64_1_0_0_1_n_n none a w

end Cert.Stages

end
-- ==== Proof.RefValue.lean ====
/-
  The reference's result as the shared stages: its composed term is the network of Stages.lean around the host's own matrix
  products — the same operations, grouped.
-/
import proofs.«172481_j54889682042891_1_alg».proof.Proof.RefRun
import proofs.«172481_j54889682042891_1_alg».proof.Proof.Stages

set_option maxRecDepth 8192

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The value the reference's run leaves in its result buffer is the network with the host's products. -/
theorem result_eq (m : (ℓ : Loc nD τ sig) → Buf (Elt F) ℓ) (c : Dev nD) :
    ValueP.res_main_v104 m c
      = Stages.network Stages.hostP Stages.hostP' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold ValueP.res_main_v104 Stages.network Stages.head Stages.layer64 Stages.layer128 Stages.edgeNorm Stages.invSqrtDegree
    Stages.inDegree Stages.wrap Stages.edgeSrc Stages.edgeDst
  rfl

end Cert.ReferenceIdeal.RefValue

end
-- ==== Proof.KernelRun.lean ====
/-
  The idealized kernel's run with its result named. The program is three launches of a row-blocked matrix product among
  stretches of host operations; after every weakly fair execution the result buffer holds what the last stretch of host
  operations leaves there, computed from the buffers as the third launch left them, and so on back to the launch memory:
  the fold `W15` of the buffer contents through the segments. The arguments end as launched.
-/
import proofs.«172481_j54889682042891_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_named : θ_run defs (onTc (τ := τ) (main (F := F))) ⟨m, fun _ => 0, ρ⟩ (fun r => ∀ c : Dev nD,
      r.2.mem ((c.tc : Thread nD τ).loc main_v104) = W15 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v104 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.Hand

end
-- ==== Proof.LibRowOps.lean ====
/-
  General lemmas about matrices of extended reals read entry by entry: a product of two matrices accumulated into zero, with
  the second operand contracted along its second axis (rows against rows) or along its first (the plain product), is the
  finite sum of the entries' products; a vector kept as a column (a unit second axis) and spread over the columns of a
  matrix reads its own row; and the sum, or the maximum, along the rows of a matrix is the finite sum, or the fold of max,
  over that row's entries.
-/
import Idealize.ShloMosaic.Lib.ValueLayout
import Idealize.ShloMosaic.PureOps.Ideal.Laws

noncomputable section
namespace Cert.KernelIdeal.Pay
open Idealize.ShloMosaic Idealize.ShloMosaic.ValueIdx

/-! ## A product of two matrices read at an entry -/

section Rows
variable (M K N : Nat)

/-- Contracting the second axis of both operands: the left index keeps the output's row on axis 0. -/
theorem rows_lhs0 (y : (⟨2, ![M, N]⟩ : Shape).Idx) (q : (DotDims.transposedRhs M K N).contr.Idx) :
    ((DotDims.transposedRhs M K N).lhsIdx y q 0).val = (y 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right index keeps the output's column on axis 0. -/
theorem rows_rhs0 (y : (⟨2, ![M, N]⟩ : Shape).Idx) (q : (DotDims.transposedRhs M K N).contr.Idx) :
    ((DotDims.transposedRhs M K N).rhsIdx y q 0).val = (y 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- `A` (M x K) against `B` (N x K), both contracted along their second axis, accumulated into zero: entry `(i, j)` is
    the dot product of row `i` of `A` and row `j` of `B`. -/
theorem matmul_rows_apply {φ₁ φ₂ : FTy} (prec : Option ContractPrecision)
    (A : FVec Ideal ⟨2, ![M, K]⟩ φ₁) (B : FVec Ideal ⟨2, ![N, K]⟩ φ₂) (i : Fin M) (j : Fin N) :
    matmul (DotDims.transposedRhs M K N) prec A B (constant ⟨2, ![M, N]⟩ .f32 0x00000000#32) (ix2 i j)
      = ∑ e : Fin K, A (ix2 i e) * B (ix2 j e) := by
  show FloatOps.matmul _ _ _ _ _ _ = _
  rw [Ideal.matmul_constant_zero_apply, ← Equiv.sum_comp (contrEquiv1 (DotDims.transposedRhs M K N) K rfl rfl).symm]
  refine Finset.sum_congr rfl fun e _ => ?_
  have he := contrEquiv1_symm_val (DotDims.transposedRhs M K N) K rfl rfl e
  have el : (DotDims.transposedRhs M K N).lhsIdx (ix2 i j) ((contrEquiv1 (DotDims.transposedRhs M K N) K rfl rfl).symm e) = ix2 i e :=
    funext fun a => Fin.ext (by
      match a with
      | ⟨0, _⟩ => exact rows_lhs0 M K N _ _
      | ⟨1, _⟩ => exact ((DotDims.transposedRhs M K N).lhsIdx_val_of_single rfl _ _).trans he)
  have er : (DotDims.transposedRhs M K N).rhsIdx (ix2 i j) ((contrEquiv1 (DotDims.transposedRhs M K N) K rfl rfl).symm e) = ix2 j e :=
    funext fun a => Fin.ext (by
      match a with
      | ⟨0, _⟩ => exact rows_rhs0 M K N _ _
      | ⟨1, _⟩ => exact ((DotDims.transposedRhs M K N).rhsIdx_val_of_single rfl _ _).trans he)
  rw [el, er]

end Rows

section Plain
variable (M K N : Nat)

/-- The plain product: the left index keeps the output's row on axis 0. -/
theorem plain_lhs0 (y : (⟨2, ![M, N]⟩ : Shape).Idx) (q : (DotDims.plain M K N).contr.Idx) :
    ((DotDims.plain M K N).lhsIdx y q 0).val = (y 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … and the right index keeps the output's column on axis 1. -/
theorem plain_rhs1 (y : (⟨2, ![M, N]⟩ : Shape).Idx) (q : (DotDims.plain M K N).contr.Idx) :
    ((DotDims.plain M K N).rhsIdx y q 1).val = (y 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `A` (M x K) against `B` (K x N), the plain product accumulated into zero: entry `(i, j)` is the dot product of row
    `i` of `A` and column `j` of `B`. -/
theorem matmul_plain_apply {φ₁ φ₂ : FTy} (prec : Option ContractPrecision)
    (A : FVec Ideal ⟨2, ![M, K]⟩ φ₁) (B : FVec Ideal ⟨2, ![K, N]⟩ φ₂) (i : Fin M) (j : Fin N) :
    matmul (DotDims.plain M K N) prec A B (constant ⟨2, ![M, N]⟩ .f32 0x00000000#32) (ix2 i j)
      = ∑ e : Fin K, A (ix2 i e) * B (ix2 e j) := by
  show FloatOps.matmul _ _ _ _ _ _ = _
  rw [Ideal.matmul_constant_zero_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 i j) ((contrEquiv1 (DotDims.plain M K N) K rfl rfl).symm e) = ix2 i e :=
    funext fun a => Fin.ext (by
      match a with
      | ⟨0, _⟩ => exact plain_lhs0 M K N _ _
      | ⟨1, _⟩ => exact ((DotDims.plain M K N).lhsIdx_val_of_single rfl _ _).trans he)
  have er : (DotDims.plain M K N).rhsIdx (ix2 i j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => exact plain_rhs1 M K N _ _)
  rw [el, er]

end Plain

/-! ## A column kept as a unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread over `b` columns reads, at `(p, c)`, the statistic of row `p`. -/
theorem keepdims_apply {α : Type} {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-! ## A reduction along the rows of a matrix -/

/-- The source index over row `p` with column `k` inserted. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The sum along axis 1 of an `[a, b]` array, at row `p`, is the sum of that row's `b` entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  exact Finset.sum_congr rfl fun k _ => congrArg src (lift_row h p k)

/-- The maximum along axis 1 of an `[a, b]` array, at row `p`, is the fold of `max` from the accumulator's value over
    that row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (fun k => src (h.lift (ix1 p) k)) = _
  exact congrArg (fun f => (Finset.univ : Finset (Fin b)).fold max (Ideal.ofBits φ acc) f) (funext fun k => congrArg src (lift_row h p k))

end Cert.KernelIdeal.Pay
end
-- ==== Proof.LibHostProduct.lean ====
/-
  The host's product of two matrices of extended reals, read entry by entry: with no batch axis and the second operand
  contracted along its first axis, entry (i, j) is the finite sum over e of A(i, e) · B(e, j) — the same sum a product
  accumulated into zero has, so a product computed in blocks of rows and the host's one product agree wherever both read
  the same rows.
-/
import proofs.«172481_j54889682042891_1_alg».proof.Proof.LibRowOps

noncomputable section
namespace Cert.KernelIdeal.Pay
open Idealize.ShloMosaic Idealize.ShloMosaic.ValueIdx

/-- The host's plain product `A` (M x K) by `B` (K x N): entry `(i, j)` is the dot product of row `i` of `A` and
    column `j` of `B`. -/
theorem hostDot_plain_apply (M K N : Nat) {φ₁ φ₂ : FTy} (prec : Option ContractPrecision)
    (A : FVec Ideal ⟨2, ![M, K]⟩ φ₁) (B : FVec Ideal ⟨2, ![K, N]⟩ φ₂) (i : Fin M) (j : Fin N) :
    Host.dotGeneral (DotDims.plain M K N) prec A B (ix2 i j) = ∑ e : Fin K, A (ix2 i e) * B (ix2 e j) := by
  show FloatOps.dotGeneral _ _ _ _ _ _ = _
  rw [Ideal.dotGeneral_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 i j) ((contrEquiv1 (DotDims.plain M K N) K rfl rfl).symm e) = ix2 i e :=
    funext fun a => Fin.ext (by
      match a with
      | ⟨0, _⟩ => exact plain_lhs0 M K N _ _
      | ⟨1, _⟩ => exact ((DotDims.plain M K N).lhsIdx_val_of_single rfl _ _).trans he)
  have er : (DotDims.plain M K N).rhsIdx (ix2 i j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => exact plain_rhs1 M K N _ _)
  rw [el, er]

/-- So a product accumulated into zero over any block of rows of `A` that sits at rows `off + ·` of a taller matrix
    `A'` is, entry by entry, the host's product of the taller matrix at the shifted row. -/
theorem matmul_block_eq_hostDot (M M' K N : Nat) {φ₁ φ₂ : FTy} (prec prec' : Option ContractPrecision)
    (A : FVec Ideal ⟨2, ![M, K]⟩ φ₁) (A' : FVec Ideal ⟨2, ![M', K]⟩ φ₁) (B : FVec Ideal ⟨2, ![K, N]⟩ φ₂)
    (i : Fin M) (i' : Fin M') (j : Fin N) (hrow : ∀ e : Fin K, A (ix2 i e) = A' (ix2 i' e)) :
    matmul (DotDims.plain M K N) prec A B (constant ⟨2, ![M, N]⟩ .f32 0x00000000#32) (ix2 i j)
      = Host.dotGeneral (DotDims.plain M' K N) prec' A' B (ix2 i' j) := by
  rw [matmul_plain_apply, hostDot_plain_apply]
  exact Finset.sum_congr rfl fun e _ => by rw [hrow e]

end Cert.KernelIdeal.Pay
end
-- ==== Proof.Launch0.lean ====
/-
  Launch 0 of the row-blocked matrix product, read as one array. The launch walks the 50000 x 128 left operand in five
  blocks of 10000 rows; at each block it multiplies the block by the whole 128 x 128 right operand, accumulating into zero
  (the change of float format in between is the identity on extended reals), and writes the 10000 x 128 product back as
  the same rows of the result. Entry (r, j) of a block's product is the sum over e of left(r, e) · right(e, j), and block t
  holds rows 10000·t … 10000·t + 9999, so the result array ends, row by row, at the host's one product of the two arrays as
  the launch found them: every row lies in exactly the block r / 10000.
-/
import proofs.«172481_j54889682042891_1_alg».proof.Proof.Gen.KernelIdeal.Frame
import proofs.«172481_j54889682042891_1_alg».proof.Proof.LibHostProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch0

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The host's product of a 50000 x 128 array by a 128 x 128 array. -/
abbrev hostProduct (a : FVec Ideal S50000x128 .f32) (w : FVec Ideal S128x128 .f32) : FVec Ideal S50000x128 .f32 :=
  Host.dotGeneral (DotDims.plain 50000 128 128) none a w

/-- One block's product at an entry is the host's product of the whole arrays at the block's row, once the block's rows
    are rows `off + ·` of the left array and the right block is the right array. -/
theorem block_entry (x0 : Vec Ideal S10000x128 .f32) (x1 : Vec Ideal S128x128 .f32)
    (a : FVec Ideal S50000x128 .f32) (w : FVec Ideal S128x128 .f32) (off : Nat)
    (y : S10000x128.Idx) (i : S50000x128.Idx) (hi0 : (i 0).val = off + (y 0).val) (hi1 : (i 1).val = (y 1).val)
    (hx0 : ∀ (r : Fin 10000) (r' : Fin 50000) (e : Fin 128), r'.val = off + r.val → x0 (ix2 r e) = a (ix2 r' e))
    (hx1 : ∀ (e : Fin 128) (j : Fin 128), x1 (ix2 e j) = w (ix2 e j)) :
    k0_pay1 x0 x1 y = hostProduct a w i := by
  obtain ⟨p, q, rfl⟩ : ∃ (p : Fin 10000) (q : Fin 128), y = ix2 p q := ⟨y 0, y 1, eq_ix2 y⟩
  obtain ⟨p', q', rfl⟩ : ∃ (p' : Fin 50000) (q' : Fin 128), i = ix2 p' q' := ⟨i 0, i 1, eq_ix2 i⟩
  have hq : q' = q := Fin.ext hi1
  subst hq
  unfold k0_pay1
  refine (Pay.matmul_plain_apply 10000 128 128 none _ _ p q').trans ?_
  refine Eq.trans ?_ (Pay.hostDot_plain_apply 50000 128 128 none a w p' q').symm
  refine Finset.sum_congr rfl fun e _ => ?_
  show x0 (ix2 p e) * x1 (ix2 e q') = _
  rw [hx0 p p' e hi0, hx1 e q']

/-- The printed index maps over the five points: the left operand's and the result's blocks move down with the point,
    the right operand's stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows 10000·t … of the left array. -/
theorem left_block (c : Dev nD) (t : Fin cfg0.N) (r : Fin 10000) (r' : Fin 50000) (e : Fin 128)
    (hr : r'.val = t.val * 10000 + r.val) :
    (iblk0 V c 0 t : Vec Ideal S10000x128 .f32) (ix2 r e) = (V c main_arg0 : FVec Ideal S50000x128 .f32) (ix2 r' e) := by
  obtain ⟨e0, e1, -⟩ := index_facts t
  unfold iblk0
  rw [View.read_apply]
  show V c main_arg0 _ = V c main_arg0 _
  congr 1
  funext ax
  apply Fin.ext
  match ax with
  | ⟨0, _⟩ => show win0_0.index t 0 * 10000 + 1 * r.val = r'.val; rw [e0, hr]; omega
  | ⟨1, _⟩ => show win0_0.index t 1 * 128 + 1 * e.val = e.val; rw [e1]; omega

/-- The right window's block is the whole right array at every point. -/
theorem right_block (c : Dev nD) (t : Fin cfg0.N) (e : Fin 128) (j : Fin 128) :
    (iblk0 V c 1 t : Vec Ideal S128x128 .f32) (ix2 e j) = (V c main_arg3 : FVec Ideal S128x128 .f32) (ix2 e j) := by
  obtain ⟨-, -, e2, e3, -⟩ := index_facts t
  unfold iblk0
  rw [View.read_apply]
  show V c main_arg3 _ = V c main_arg3 _
  congr 1
  funext ax
  apply Fin.ext
  match ax with
  | ⟨0, _⟩ => show win0_1.index t 0 * 128 + 1 * e.val = e.val; rw [e2]; omega
  | ⟨1, _⟩ => show win0_1.index t 1 * 128 + 1 * j.val = j.val; rw [e3]; omega

/-- What point `t` writes back is block `t` of the host's product of the arrays as the launch found them. -/
theorem flushed_eq (c : Dev nD) (t : Fin cfg0.N) :
    (dat0 V c).flushed 2 t
      = ((cfg0.win 2).blk t).view.read (Elt Ideal) (hostProduct (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨-, -, -, -, e4, e5⟩ := index_facts t
  funext y
  rw [View.read_apply]
  refine block_entry (iblk0 V c 0 t) (iblk0 V c 1 t) (V c main_arg0) (V c main_arg3) (t.val * 10000) y
    (((cfg0.win 2).blk t).view.emb y) ?_ ?_ (fun r r' e hr => left_block V c t r r' e hr) (fun e j => right_block V c t e j)
  · show win0_2.index t 0 * 10000 + 1 * (y 0).val = t.val * 10000 + (y 0).val
    rw [e4]; omega
  · show win0_2.index t 1 * 128 + 1 * (y 1).val = (y 1).val
    rw [e5]; omega

/-- An index of the result array lies in point `t`'s block iff each coordinate is in the block's range on its axis. -/
theorem mem_block (t : Fin cfg0.N) (i : S50000x128.Idx) :
    i ∈ ((cfg0.win 2).blk t).view.set ↔ ∀ ax : Fin 2, win0_2.index t ax * S10000x128.size ax ≤ (i ax).val
      ∧ (i ax).val < win0_2.index t ax * S10000x128.size ax + S10000x128.size ax := by
  show i ∈ ((View.whole main_v30).slice (win0_2.rect t)).set ↔ _
  rw [View.set_slice_whole, Rect.mem_set_unit]
  exact Iff.rfl

/-- Row `r` lies in the block of point `r / 10000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, e4, e5⟩ := index_facts t
  refine ⟨t, flush0_2 t, ?_⟩
  rw [mem_block]
  intro ax
  match ax with
  | ⟨0, _⟩ =>
    show win0_2.index t 0 * 10000 ≤ (i 0).val ∧ (i 0).val < win0_2.index t 0 * 10000 + 10000
    rw [e4, ht]; omega
  | ⟨1, _⟩ =>
    show win0_2.index t 1 * 128 ≤ (i 1).val ∧ (i 1).val < win0_2.index t 1 * 128 + 128
    rw [e5]; omega

/-- So the result array after the launch is the host's product of the two arrays as the launch found them. -/
theorem result (c : Dev nD) :
    (dat0 V c).arrAt 2 cfg0.N = hostProduct (V c main_arg0) (V c main_arg3) :=
  (dat0 V c).arrAt_eq_of_cover 2 (hostProduct (V c main_arg0) (V c main_arg3)) (fun t _ => flushed_eq V c t) covered

end Cert.KernelIdeal.Launch0

end
-- ==== Proof.Launch1.lean ====
/-
  Launch 1 of the row-blocked matrix product, read as one array. The launch walks the 50000 x 128 left operand in five
  blocks of 10000 rows; at each block it multiplies the block by the whole 128 x 128 right operand, accumulating into zero
  (the change of float format and the cast to the same shape in between are the identity), and writes the 10000 x 128 product back as
  the same rows of the result. Entry (r, j) of a block's product is the sum over e of left(r, e) · right(e, j), and block t
  holds rows 10000·t … 10000·t + 9999, so the result array ends, row by row, at the host's one product of the two arrays as
  the launch found them: every row lies in exactly the block r / 10000.
-/
import proofs.«172481_j54889682042891_1_alg».proof.Proof.Gen.KernelIdeal.Frame
import proofs.«172481_j54889682042891_1_alg».proof.Proof.LibHostProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch1

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The host's product of a 50000 x 128 array by a 128 x 128 array. -/
abbrev hostProduct (a : FVec Ideal S50000x128 .f32) (w : FVec Ideal S128x128 .f32) : FVec Ideal S50000x128 .f32 :=
  Host.dotGeneral (DotDims.plain 50000 128 128) none a w

/-- One block's product at an entry is the host's product of the whole arrays at the block's row, once the block's rows
    are rows `off + ·` of the left array and the right block is the right array. -/
theorem block_entry (x0 : Vec Ideal S10000x128 .f32) (x1 : Vec Ideal S128x128 .f32)
    (a : FVec Ideal S50000x128 .f32) (w : FVec Ideal S128x128 .f32) (off : Nat)
    (y : S10000x128.Idx) (i : S50000x128.Idx) (hi0 : (i 0).val = off + (y 0).val) (hi1 : (i 1).val = (y 1).val)
    (hx0 : ∀ (r : Fin 10000) (r' : Fin 50000) (e : Fin 128), r'.val = off + r.val → x0 (ix2 r e) = a (ix2 r' e))
    (hx1 : ∀ (e : Fin 128) (j : Fin 128), x1 (ix2 e j) = w (ix2 e j)) :
    k1_pay1 x0 x1 y = hostProduct a w i := by
  obtain ⟨p, q, rfl⟩ : ∃ (p : Fin 10000) (q : Fin 128), y = ix2 p q := ⟨y 0, y 1, eq_ix2 y⟩
  obtain ⟨p', q', rfl⟩ : ∃ (p' : Fin 50000) (q' : Fin 128), i = ix2 p' q' := ⟨i 0, i 1, eq_ix2 i⟩
  have hq : q' = q := Fin.ext hi1
  subst hq
  unfold k1_pay1
  simp only [shapeCast_self]
  refine (Pay.matmul_plain_apply 10000 128 128 none _ _ p q').trans ?_
  refine Eq.trans ?_ (Pay.hostDot_plain_apply 50000 128 128 none a w p' q').symm
  refine Finset.sum_congr rfl fun e _ => ?_
  show x0 (ix2 p e) * x1 (ix2 e q') = _
  rw [hx0 p p' e hi0, hx1 e q']

/-- The printed index maps over the five points: the left operand's and the result's blocks move down with the point,
    the right operand's stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows 10000·t … of the left array. -/
theorem left_block (c : Dev nD) (t : Fin cfg1.N) (r : Fin 10000) (r' : Fin 50000) (e : Fin 128)
    (hr : r'.val = t.val * 10000 + r.val) :
    (iblk1 V c 0 t : Vec Ideal S10000x128 .f32) (ix2 r e) = (V c main_v47 : FVec Ideal S50000x128 .f32) (ix2 r' e) := by
  obtain ⟨e0, e1, -⟩ := index_facts t
  unfold iblk1
  rw [View.read_apply]
  show V c main_v47 _ = V c main_v47 _
  congr 1
  funext ax
  apply Fin.ext
  match ax with
  | ⟨0, _⟩ => show win1_0.index t 0 * 10000 + 1 * r.val = r'.val; rw [e0, hr]; omega
  | ⟨1, _⟩ => show win1_0.index t 1 * 128 + 1 * e.val = e.val; rw [e1]; omega

/-- The right window's block is the whole right array at every point. -/
theorem right_block (c : Dev nD) (t : Fin cfg1.N) (e : Fin 128) (j : Fin 128) :
    (iblk1 V c 1 t : Vec Ideal S128x128 .f32) (ix2 e j) = (V c main_arg5 : FVec Ideal S128x128 .f32) (ix2 e j) := by
  obtain ⟨-, -, e2, e3, -⟩ := index_facts t
  unfold iblk1
  rw [View.read_apply]
  show V c main_arg5 _ = V c main_arg5 _
  congr 1
  funext ax
  apply Fin.ext
  match ax with
  | ⟨0, _⟩ => show win1_1.index t 0 * 128 + 1 * e.val = e.val; rw [e2]; omega
  | ⟨1, _⟩ => show win1_1.index t 1 * 128 + 1 * j.val = j.val; rw [e3]; omega

/-- What point `t` writes back is block `t` of the host's product of the arrays as the launch found them. -/
theorem flushed_eq (c : Dev nD) (t : Fin cfg1.N) :
    (dat1 V c).flushed 2 t
      = ((cfg1.win 2).blk t).view.read (Elt Ideal) (hostProduct (V c main_v47) (V c main_arg5)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x128) zero_offsets]
  obtain ⟨-, -, -, -, e4, e5⟩ := index_facts t
  funext y
  rw [View.read_apply]
  refine block_entry (iblk1 V c 0 t) (iblk1 V c 1 t) (V c main_v47) (V c main_arg5) (t.val * 10000) y
    (((cfg1.win 2).blk t).view.emb y) ?_ ?_ (fun r r' e hr => left_block V c t r r' e hr) (fun e j => right_block V c t e j)
  · show win1_2.index t 0 * 10000 + 1 * (y 0).val = t.val * 10000 + (y 0).val
    rw [e4]; omega
  · show win1_2.index t 1 * 128 + 1 * (y 1).val = (y 1).val
    rw [e5]; omega

/-- An index of the result array lies in point `t`'s block iff each coordinate is in the block's range on its axis. -/
theorem mem_block (t : Fin cfg1.N) (i : S50000x128.Idx) :
    i ∈ ((cfg1.win 2).blk t).view.set ↔ ∀ ax : Fin 2, win1_2.index t ax * S10000x128.size ax ≤ (i ax).val
      ∧ (i ax).val < win1_2.index t ax * S10000x128.size ax + S10000x128.size ax := by
  show i ∈ ((View.whole main_v48).slice (win1_2.rect t)).set ↔ _
  rw [View.set_slice_whole, Rect.mem_set_unit]
  exact Iff.rfl

/-- Row `r` lies in the block of point `r / 10000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, e4, e5⟩ := index_facts t
  refine ⟨t, flush1_2 t, ?_⟩
  rw [mem_block]
  intro ax
  match ax with
  | ⟨0, _⟩ =>
    show win1_2.index t 0 * 10000 ≤ (i 0).val ∧ (i 0).val < win1_2.index t 0 * 10000 + 10000
    rw [e4, ht]; omega
  | ⟨1, _⟩ =>
    show win1_2.index t 1 * 128 ≤ (i 1).val ∧ (i 1).val < win1_2.index t 1 * 128 + 128
    rw [e5]; omega

/-- So the result array after the launch is the host's product of the two arrays as the launch found them. -/
theorem result (c : Dev nD) :
    (dat1 V c).arrAt 2 cfg1.N = hostProduct (V c main_v47) (V c main_arg5) :=
  (dat1 V c).arrAt_eq_of_cover 2 (hostProduct (V c main_v47) (V c main_arg5)) (fun t _ => flushed_eq V c t) covered

end Cert.KernelIdeal.Launch1

end
-- ==== Proof.Launch2.lean ====
/-
  Launch 2 of the row-blocked matrix product, read as one array. The launch walks the 50000 x 128 left operand in five
  blocks of 10000 rows; at each block it multiplies the block by the whole 128 x 64 right operand, accumulating into zero
  (the change of float format and the cast to the same shape in between are the identity), and writes the 10000 x 64 product back as
  the same rows of the result. Entry (r, j) of a block's product is the sum over e of left(r, e) · right(e, j), and block t
  holds rows 10000·t … 10000·t + 9999, so the result array ends, row by row, at the host's one product of the two arrays as
  the launch found them: every row lies in exactly the block r / 10000.
-/
import proofs.«172481_j54889682042891_1_alg».proof.Proof.Gen.KernelIdeal.Frame
import proofs.«172481_j54889682042891_1_alg».proof.Proof.LibHostProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The host's product of a 50000 x 128 array by a 128 x 64 array. -/
abbrev hostProduct (a : FVec Ideal S50000x128 .f32) (w : FVec Ideal S128x64 .f32) : FVec Ideal S50000x64 .f32 :=
  Host.dotGeneral (DotDims.plain 50000 128 64) none a w

/-- One block's product at an entry is the host's product of the whole arrays at the block's row, once the block's rows
    are rows `off + ·` of the left array and the right block is the right array. -/
theorem block_entry (x0 : Vec Ideal S10000x128 .f32) (x1 : Vec Ideal S128x64 .f32)
    (a : FVec Ideal S50000x128 .f32) (w : FVec Ideal S128x64 .f32) (off : Nat)
    (y : S10000x64.Idx) (i : S50000x64.Idx) (hi0 : (i 0).val = off + (y 0).val) (hi1 : (i 1).val = (y 1).val)
    (hx0 : ∀ (r : Fin 10000) (r' : Fin 50000) (e : Fin 128), r'.val = off + r.val → x0 (ix2 r e) = a (ix2 r' e))
    (hx1 : ∀ (e : Fin 128) (j : Fin 64), x1 (ix2 e j) = w (ix2 e j)) :
    k2_pay1 x0 x1 y = hostProduct a w i := by
  obtain ⟨p, q, rfl⟩ : ∃ (p : Fin 10000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  have hq : q' = q := Fin.ext hi1
  subst hq
  unfold k2_pay1
  simp only [shapeCast_self]
  refine (Pay.matmul_plain_apply 10000 128 64 none _ _ p q').trans ?_
  refine Eq.trans ?_ (Pay.hostDot_plain_apply 50000 128 64 none a w p' q').symm
  refine Finset.sum_congr rfl fun e _ => ?_
  show x0 (ix2 p e) * x1 (ix2 e q') = _
  rw [hx0 p p' e hi0, hx1 e q']

/-- The printed index maps over the five points: the left operand's and the result's blocks move down with the point,
    the right operand's stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows 10000·t … of the left array. -/
theorem left_block (c : Dev nD) (t : Fin cfg2.N) (r : Fin 10000) (r' : Fin 50000) (e : Fin 128)
    (hr : r'.val = t.val * 10000 + r.val) :
    (iblk2 V c 0 t : Vec Ideal S10000x128 .f32) (ix2 r e) = (V c main_v65 : FVec Ideal S50000x128 .f32) (ix2 r' e) := by
  obtain ⟨e0, e1, -⟩ := index_facts t
  unfold iblk2
  rw [View.read_apply]
  show V c main_v65 _ = V c main_v65 _
  congr 1
  funext ax
  apply Fin.ext
  match ax with
  | ⟨0, _⟩ => show win2_0.index t 0 * 10000 + 1 * r.val = r'.val; rw [e0, hr]; omega
  | ⟨1, _⟩ => show win2_0.index t 1 * 128 + 1 * e.val = e.val; rw [e1]; omega

/-- The right window's block is the whole right array at every point. -/
theorem right_block (c : Dev nD) (t : Fin cfg2.N) (e : Fin 128) (j : Fin 64) :
    (iblk2 V c 1 t : Vec Ideal S128x64 .f32) (ix2 e j) = (V c main_arg7 : FVec Ideal S128x64 .f32) (ix2 e j) := by
  obtain ⟨-, -, e2, e3, -⟩ := index_facts t
  unfold iblk2
  rw [View.read_apply]
  show V c main_arg7 _ = V c main_arg7 _
  congr 1
  funext ax
  apply Fin.ext
  match ax with
  | ⟨0, _⟩ => show win2_1.index t 0 * 128 + 1 * e.val = e.val; rw [e2]; omega
  | ⟨1, _⟩ => show win2_1.index t 1 * 64 + 1 * j.val = j.val; rw [e3]; omega

/-- What point `t` writes back is block `t` of the host's product of the arrays as the launch found them. -/
theorem flushed_eq (c : Dev nD) (t : Fin cfg2.N) :
    (dat2 V c).flushed 2 t
      = ((cfg2.win 2).blk t).view.read (Elt Ideal) (hostProduct (V c main_v65) (V c main_arg7)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x64) zero_offsets]
  obtain ⟨-, -, -, -, e4, e5⟩ := index_facts t
  funext y
  rw [View.read_apply]
  refine block_entry (iblk2 V c 0 t) (iblk2 V c 1 t) (V c main_v65) (V c main_arg7) (t.val * 10000) y
    (((cfg2.win 2).blk t).view.emb y) ?_ ?_ (fun r r' e hr => left_block V c t r r' e hr) (fun e j => right_block V c t e j)
  · show win2_2.index t 0 * 10000 + 1 * (y 0).val = t.val * 10000 + (y 0).val
    rw [e4]; omega
  · show win2_2.index t 1 * 64 + 1 * (y 1).val = (y 1).val
    rw [e5]; omega

/-- An index of the result array lies in point `t`'s block iff each coordinate is in the block's range on its axis. -/
theorem mem_block (t : Fin cfg2.N) (i : S50000x64.Idx) :
    i ∈ ((cfg2.win 2).blk t).view.set ↔ ∀ ax : Fin 2, win2_2.index t ax * S10000x64.size ax ≤ (i ax).val
      ∧ (i ax).val < win2_2.index t ax * S10000x64.size ax + S10000x64.size ax := by
  show i ∈ ((View.whole main_v66).slice (win2_2.rect t)).set ↔ _
  rw [View.set_slice_whole, Rect.mem_set_unit]
  exact Iff.rfl

/-- Row `r` lies in the block of point `r / 10000`. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 5 := N_2
  obtain ⟨t, ht⟩ : ∃ t : Fin cfg2.N, t.val = (i 0).val / 10000 := ⟨⟨(i 0).val / 10000, by rw [hN]; omega⟩, rfl⟩
  obtain ⟨-, -, -, -, e4, e5⟩ := index_facts t
  refine ⟨t, flush2_2 t, ?_⟩
  rw [mem_block]
  intro ax
  match ax with
  | ⟨0, _⟩ =>
    show win2_2.index t 0 * 10000 ≤ (i 0).val ∧ (i 0).val < win2_2.index t 0 * 10000 + 10000
    rw [e4, ht]; omega
  | ⟨1, _⟩ =>
    show win2_2.index t 1 * 64 ≤ (i 1).val ∧ (i 1).val < win2_2.index t 1 * 64 + 64
    rw [e5]; omega

/-- So the result array after the launch is the host's product of the two arrays as the launch found them. -/
theorem result (c : Dev nD) :
    (dat2 V c).arrAt 2 cfg2.N = hostProduct (V c main_v65) (V c main_arg7) :=
  (dat2 V c).arrAt_eq_of_cover 2 (hostProduct (V c main_v65) (V c main_arg7)) (fun t _ => flushed_eq V c t) covered

end Cert.KernelIdeal.Launch2

end
-- ==== Proof.HostStages.lean ====
/-
  What the kernel's stretches of host operations compute, from any buffer contents `W` they start at: the stretch before
  the first launch builds the edge lists with their self loops and the edge weights from the edge list; the stretch after
  each of the first two launches is one 128-feature layer of the launch's product; the stretch after the third launch is
  the 64-feature layer followed by the head. Each is the function of Stages.lean of the buffers the stretch reads: the
  stretch's operations, one after the other, are that function's operations.
-/
import proofs.«172481_j54889682042891_1_alg».proof.Proof.Gen.KernelIdeal.Launch
import proofs.«172481_j54889682042891_1_alg».proof.Proof.Stages
import Idealize.ShloMosaic.Lib.StableHlo.Run

noncomputable section

namespace Cert.KernelIdeal.HostStages

open Cert.KernelIdeal Cert.KernelIdeal.Gen Idealize.ShloMosaic Idealize.ShloMosaic.TcCoe Idealize.ShloMosaic.StableHlo

variable {F : FTy → Type} [FloatOps F]

set_option maxHeartbeats 8000000 in
/-- Before the first launch: the source of every edge. -/
theorem edges_src (W : Valuation τ sig (Elt F)) :
    after hostOps0_2 (after hostOps0_1 (after hostOps0 W)) (Proc.devRef .tc main_v3) = Stages.edgeSrc (W (Proc.devRef .tc main_arg1)) := by
  dsimp only [hostOps0, hostOps0_1, hostOps0_2]
  after_results_simp
  rfl

set_option maxHeartbeats 8000000 in
/-- … the target of every edge. -/
theorem edges_dst (W : Valuation τ sig (Elt F)) :
    after hostOps0_2 (after hostOps0_1 (after hostOps0 W)) (Proc.devRef .tc main_v6) = Stages.edgeDst (W (Proc.devRef .tc main_arg1)) := by
  dsimp only [hostOps0, hostOps0_1, hostOps0_2]
  after_results_simp
  rfl

set_option maxHeartbeats 8000000 in
/-- … and every edge's weight. -/
theorem edges_norm (W : Valuation τ sig (Elt F)) :
    after hostOps0_2 (after hostOps0_1 (after hostOps0 W)) (Proc.devRef .tc main_v29)
      = Stages.edgeNorm (Stages.edgeSrc (W (Proc.devRef .tc main_arg1))) (Stages.edgeDst (W (Proc.devRef .tc main_arg1))) := by
  dsimp only [hostOps0, hostOps0_1, hostOps0_2]
  after_results_simp
  rfl

set_option maxHeartbeats 8000000 in
/-- After the first launch: the first layer of the launch's product. -/
theorem layer_one (W : Valuation τ sig (Elt F)) :
    after hostOps1_1 (after hostOps1 W) (Proc.devRef .tc main_v47)
      = Stages.layer128 (W (Proc.devRef .tc main_v30)) (W (Proc.devRef .tc main_v3)) (W (Proc.devRef .tc main_v6)) (W (Proc.devRef .tc main_v29)) (W (Proc.devRef .tc main_arg4)) := by
  dsimp only [hostOps1, hostOps1_1]
  after_results_simp
  rfl

set_option maxHeartbeats 8000000 in
/-- After the second launch: the second layer of the launch's product. -/
theorem layer_two (W : Valuation τ sig (Elt F)) :
    after hostOps2_1 (after hostOps2 W) (Proc.devRef .tc main_v65)
      = Stages.layer128 (W (Proc.devRef .tc main_v48)) (W (Proc.devRef .tc main_v3)) (W (Proc.devRef .tc main_v6)) (W (Proc.devRef .tc main_v29)) (W (Proc.devRef .tc main_arg6)) := by
  dsimp only [hostOps2, hostOps2_1]
  after_results_simp
  rfl

set_option maxHeartbeats 16000000 in
/-- After the third launch: the third layer of the launch's product, then the head. -/
theorem layer_three_head (W : Valuation τ sig (Elt F)) :
    after hostOps3_4 (after hostOps3_3 (after hostOps3_2 (after hostOps3_1 (after hostOps3 W)))) (Proc.devRef .tc main_v104)
      = Stages.head (Stages.layer64 (W (Proc.devRef .tc main_v66)) (W (Proc.devRef .tc main_v3)) (W (Proc.devRef .tc main_v6)) (W (Proc.devRef .tc main_v29)) (W (Proc.devRef .tc main_arg8)))
          (W (Proc.devRef .tc main_arg2)) (W (Proc.devRef .tc main_arg9)) (W (Proc.devRef .tc main_arg10)) (W (Proc.devRef .tc main_arg11)) (W (Proc.devRef .tc main_arg12)) := by
  dsimp only [hostOps3, hostOps3_1, hostOps3_2, hostOps3_3, hostOps3_4]
  after_results_simp
  rfl

end Cert.KernelIdeal.HostStages

end
-- ==== Proof.HostKeeps.lean ====
/-
  What the kernel's stretches of host operations leave alone. The stretch before the first launch writes none of the
  arguments; the stretches after the first and the second launch write neither the edge lists, nor the edge weights, nor an
  argument: a buffer keeps its contents through a stretch none of whose operations writes it.
-/
import proofs.«172481_j54889682042891_1_alg».proof.Proof.Gen.KernelIdeal.Launch
import Idealize.ShloMosaic.Lib.StableHlo.Run

noncomputable section

namespace Cert.KernelIdeal.HostStages

open Cert.KernelIdeal Cert.KernelIdeal.Gen Idealize.ShloMosaic Idealize.ShloMosaic.TcCoe Idealize.ShloMosaic.StableHlo

variable {F : FTy → Type} [FloatOps F]

/-- The arguments the launches and the later stretches read. -/
abbrev laterArgs : List (Ref sig .tc) := [main_arg0, main_arg2, main_arg3, main_arg4, main_arg5, main_arg6, main_arg7, main_arg8, main_arg9, main_arg10, main_arg11, main_arg12]

/-- What every stage after the first launch reads besides the node features: the edge lists, the edge weights, and the
    arguments from the first bias on. -/
abbrev shared : List (Ref sig .tc) := [main_v3, main_v6, main_v29, main_arg2, main_arg4, main_arg5, main_arg6, main_arg7, main_arg8, main_arg9, main_arg10, main_arg11, main_arg12]

set_option maxHeartbeats 64000000 in
/-- The stretch before the first launch writes no argument. -/
theorem edges_keep (W : Valuation τ sig (Elt F)) (b : Ref sig .tc) (hb : b ∈ laterArgs) :
    after hostOps0_2 (after hostOps0_1 (after hostOps0 W)) (Proc.devRef .tc b) = W (Proc.devRef .tc b) := by
  simp only [laterArgs, List.mem_cons, List.mem_nil_iff, or_false] at hb
  rcases hb with rfl | rfl | rfl | rfl | rfl | rfl | rfl | rfl | rfl | rfl | rfl | rfl <;>
    (dsimp only [hostOps0, hostOps0_1, hostOps0_2]; after_results_simp)

set_option maxHeartbeats 64000000 in
/-- The stretch after the first launch writes none of the shared buffers. -/
theorem layer_one_keep (W : Valuation τ sig (Elt F)) (b : Ref sig .tc) (hb : b ∈ shared) :
    after hostOps1_1 (after hostOps1 W) (Proc.devRef .tc b) = W (Proc.devRef .tc b) := by
  simp only [shared, List.mem_cons, List.mem_nil_iff, or_false] at hb
  rcases hb with rfl | rfl | rfl | rfl | rfl | rfl | rfl | rfl | rfl | rfl | rfl | rfl | rfl <;>
    (dsimp only [hostOps1, hostOps1_1]; after_results_simp)

set_option maxHeartbeats 64000000 in
/-- Nor does the stretch after the second launch. -/
theorem layer_two_keep (W : Valuation τ sig (Elt F)) (b : Ref sig .tc) (hb : b ∈ shared) :
    after hostOps2_1 (after hostOps2 W) (Proc.devRef .tc b) = W (Proc.devRef .tc b) := by
  simp only [shared, List.mem_cons, List.mem_nil_iff, or_false] at hb
  rcases hb with rfl | rfl | rfl | rfl | rfl | rfl | rfl | rfl | rfl | rfl | rfl | rfl | rfl <;>
    (dsimp only [hostOps2, hostOps2_1]; after_results_simp)

end Cert.KernelIdeal.HostStages

end
-- ==== Proof.Bridge.lean ====
/-
  The kernel's result buffer, walked back through the program. The buffer contents at the boundaries between the stretches
  of host operations and the launches are a fold from the launch memory; read at the buffers each stage uses, the fold is:
  the edge lists and weights from the edge list; the first launch's result the host's product of the node features with the
  first weight matrix; the first layer of it; the second launch's result the host's product of that layer with the second
  weight matrix; the second layer; the third launch's result the host's product with the third weight matrix; the third
  layer and the head. Between these the edge lists, the weights and the arguments stay where they are, because no stretch
  and no launch writes them. So the result buffer ends at the network of Stages.lean around the host's products.
-/
import proofs.«172481_j54889682042891_1_alg».proof.Proof.Gen.KernelIdeal.Frame
import proofs.«172481_j54889682042891_1_alg».proof.Proof.Launch0
import proofs.«172481_j54889682042891_1_alg».proof.Proof.Launch1
import proofs.«172481_j54889682042891_1_alg».proof.Proof.Launch2
import proofs.«172481_j54889682042891_1_alg».proof.Proof.HostStages
import proofs.«172481_j54889682042891_1_alg».proof.Proof.HostKeeps

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first launch's entry -/

/-- The arguments are as launched. -/
theorem entry_arg (b : Ref sig .tc) (hb : b ∈ HostStages.laterArgs) :
    W3 m ρ c (Proc.devRef .tc b) = m ((c : Thread nD τ).loc b) :=
  HostStages.edges_keep (W0 m ρ c) b hb

theorem entry_src : W3 m ρ c (Proc.devRef .tc main_v3) = Stages.edgeSrc (m ((c : Thread nD τ).loc main_arg1)) := HostStages.edges_src (W0 m ρ c)
theorem entry_dst : W3 m ρ c (Proc.devRef .tc main_v6) = Stages.edgeDst (m ((c : Thread nD τ).loc main_arg1)) := HostStages.edges_dst (W0 m ρ c)
theorem entry_norm : W3 m ρ c (Proc.devRef .tc main_v29) = Stages.edgeNorm (Stages.edgeSrc (m ((c : Thread nD τ).loc main_arg1))) (Stages.edgeDst (m ((c : Thread nD τ).loc main_arg1))) :=
  HostStages.edges_norm (W0 m ρ c)

/-! ## The shared buffers stay put -/

theorem keep4 (b : Ref sig .tc) (hb : b ∈ HostStages.shared) : W4 m ρ c (Proc.devRef .tc b) = W3 m ρ c (Proc.devRef .tc b) :=
  W4_of_ne m ρ c b (by
    simp only [HostStages.shared, List.mem_cons, List.mem_nil_iff, or_false] at hb
    rcases hb with rfl | rfl | rfl | rfl | rfl | rfl | rfl | rfl | rfl | rfl | rfl | rfl | rfl <;> decide)
theorem keep6 (b : Ref sig .tc) (hb : b ∈ HostStages.shared) : W6 m ρ c (Proc.devRef .tc b) = W3 m ρ c (Proc.devRef .tc b) :=
  (HostStages.layer_one_keep (W4 m ρ c) b hb).trans (keep4 m ρ c b hb)
/-- The second launch reads the second weight matrix through a window and writes only its result. -/
theorem through_launch1 (b : Ref sig .tc) (hb : b ∈ HostStages.shared) : W7 m ρ c (Proc.devRef .tc b) = W6 m ρ c (Proc.devRef .tc b) := by
  simp only [HostStages.shared, List.mem_cons, List.mem_nil_iff, or_false] at hb
  rcases hb with rfl | rfl | rfl | rfl | rfl | rfl | rfl | rfl | rfl | rfl | rfl | rfl | rfl
  all_goals first
    | exact W7_of_ne m ρ c _ (by decide)
    | exact (W7_arr m ρ c 1).trans (((dat1 (V6 m ρ) c).arrAt_in 1 rfl _).trans (A_eq1 (V6 m ρ) c 1))
theorem keep7 (b : Ref sig .tc) (hb : b ∈ HostStages.shared) : W7 m ρ c (Proc.devRef .tc b) = W3 m ρ c (Proc.devRef .tc b) :=
  (through_launch1 m ρ c b hb).trans (keep6 m ρ c b hb)
theorem keep9 (b : Ref sig .tc) (hb : b ∈ HostStages.shared) : W9 m ρ c (Proc.devRef .tc b) = W3 m ρ c (Proc.devRef .tc b) :=
  (HostStages.layer_two_keep (W7 m ρ c) b hb).trans (keep7 m ρ c b hb)
/-- The third launch reads the third weight matrix through a window and writes only its result. -/
theorem through_launch2 (b : Ref sig .tc) (hb : b ∈ HostStages.shared) : W10 m ρ c (Proc.devRef .tc b) = W9 m ρ c (Proc.devRef .tc b) := by
  simp only [HostStages.shared, List.mem_cons, List.mem_nil_iff, or_false] at hb
  rcases hb with rfl | rfl | rfl | rfl | rfl | rfl | rfl | rfl | rfl | rfl | rfl | rfl | rfl
  all_goals first
    | exact W10_of_ne m ρ c _ (by decide)
    | exact (W10_arr m ρ c 1).trans (((dat2 (V9 m ρ) c).arrAt_in 1 rfl _).trans (A_eq2 (V9 m ρ) c 1))
theorem keep10 (b : Ref sig .tc) (hb : b ∈ HostStages.shared) : W10 m ρ c (Proc.devRef .tc b) = W3 m ρ c (Proc.devRef .tc b) :=
  (through_launch2 m ρ c b hb).trans (keep9 m ρ c b hb)

/-- Contents that agree with the first launch's entry on the shared buffers hold there the edge lists, the weights and
    the arguments. -/
theorem holds (W : Valuation τ sig (Elt Ideal))
    (h : ∀ b ∈ HostStages.shared, W (Proc.devRef .tc b) = W3 m ρ c (Proc.devRef .tc b)) :
    W (Proc.devRef .tc main_v3) = Stages.edgeSrc (m ((c : Thread nD τ).loc main_arg1))
    ∧ W (Proc.devRef .tc main_v6) = Stages.edgeDst (m ((c : Thread nD τ).loc main_arg1))
    ∧ W (Proc.devRef .tc main_v29) = Stages.edgeNorm (Stages.edgeSrc (m ((c : Thread nD τ).loc main_arg1))) (Stages.edgeDst (m ((c : Thread nD τ).loc main_arg1)))
    ∧ W (Proc.devRef .tc main_arg2) = m ((c : Thread nD τ).loc main_arg2)
    ∧ W (Proc.devRef .tc main_arg4) = m ((c : Thread nD τ).loc main_arg4)
    ∧ W (Proc.devRef .tc main_arg5) = m ((c : Thread nD τ).loc main_arg5)
    ∧ W (Proc.devRef .tc main_arg6) = m ((c : Thread nD τ).loc main_arg6)
    ∧ W (Proc.devRef .tc main_arg7) = m ((c : Thread nD τ).loc main_arg7)
    ∧ W (Proc.devRef .tc main_arg8) = m ((c : Thread nD τ).loc main_arg8)
    ∧ W (Proc.devRef .tc main_arg9) = m ((c : Thread nD τ).loc main_arg9)
    ∧ W (Proc.devRef .tc main_arg10) = m ((c : Thread nD τ).loc main_arg10)
    ∧ W (Proc.devRef .tc main_arg11) = m ((c : Thread nD τ).loc main_arg11)
    ∧ W (Proc.devRef .tc main_arg12) = m ((c : Thread nD τ).loc main_arg12) :=
  ⟨(h main_v3 (by decide)).trans (entry_src m ρ c), (h main_v6 (by decide)).trans (entry_dst m ρ c),
   (h main_v29 (by decide)).trans (entry_norm m ρ c),
   (h main_arg2 (by decide)).trans (entry_arg m ρ c main_arg2 (by decide)),
   (h main_arg4 (by decide)).trans (entry_arg m ρ c main_arg4 (by decide)),
   (h main_arg5 (by decide)).trans (entry_arg m ρ c main_arg5 (by decide)),
   (h main_arg6 (by decide)).trans (entry_arg m ρ c main_arg6 (by decide)),
   (h main_arg7 (by decide)).trans (entry_arg m ρ c main_arg7 (by decide)),
   (h main_arg8 (by decide)).trans (entry_arg m ρ c main_arg8 (by decide)),
   (h main_arg9 (by decide)).trans (entry_arg m ρ c main_arg9 (by decide)),
   (h main_arg10 (by decide)).trans (entry_arg m ρ c main_arg10 (by decide)),
   (h main_arg11 (by decide)).trans (entry_arg m ρ c main_arg11 (by decide)),
   (h main_arg12 (by decide)).trans (entry_arg m ρ c main_arg12 (by decide))⟩

/-! ## The node features, stage by stage -/

/-- The first launch leaves the host's product of the node features with the first weight matrix. -/
theorem product0 : W4 m ρ c (Proc.devRef .tc main_v30) = Launch0.hostProduct (m ((c : Thread nD τ).loc main_arg0)) (m ((c : Thread nD τ).loc main_arg3)) :=
  (W4_arr m ρ c 2).trans ((Launch0.result (V3 m ρ) c).trans (by
    show Launch0.hostProduct (W3 m ρ c (Proc.devRef .tc main_arg0)) (W3 m ρ c (Proc.devRef .tc main_arg3)) = _
    rw [entry_arg m ρ c main_arg0 (by decide), entry_arg m ρ c main_arg3 (by decide)]))

/-- The first layer. -/
theorem features1 : W6 m ρ c (Proc.devRef .tc main_v47) = Stages.layer128 (Launch0.hostProduct (m ((c : Thread nD τ).loc main_arg0)) (m ((c : Thread nD τ).loc main_arg3))) (Stages.edgeSrc (m ((c : Thread nD τ).loc main_arg1))) (Stages.edgeDst (m ((c : Thread nD τ).loc main_arg1))) (Stages.edgeNorm (Stages.edgeSrc (m ((c : Thread nD τ).loc main_arg1))) (Stages.edgeDst (m ((c : Thread nD τ).loc main_arg1)))) (m ((c : Thread nD τ).loc main_arg4)) :=
  (HostStages.layer_one (W4 m ρ c)).trans (by
    obtain ⟨hs, hd, hn, h2, h4, h5, h6, h7, h8, h9, h10, h11, h12⟩ := holds m ρ c (W4 m ρ c) (keep4 m ρ c)
    rw [product0 m ρ c, hs, hd, hn, h4])

/-- The second launch leaves the host's product of the first layer with the second weight matrix. -/
theorem product1 : W7 m ρ c (Proc.devRef .tc main_v48) = Launch1.hostProduct (Stages.layer128 (Launch0.hostProduct (m ((c : Thread nD τ).loc main_arg0)) (m ((c : Thread nD τ).loc main_arg3))) (Stages.edgeSrc (m ((c : Thread nD τ).loc main_arg1))) (Stages.edgeDst (m ((c : Thread nD τ).loc main_arg1))) (Stages.edgeNorm (Stages.edgeSrc (m ((c : Thread nD τ).loc main_arg1))) (Stages.edgeDst (m ((c : Thread nD τ).loc main_arg1)))) (m ((c : Thread nD τ).loc main_arg4))) (m ((c : Thread nD τ).loc main_arg5)) :=
  (W7_arr m ρ c 2).trans ((Launch1.result (V6 m ρ) c).trans (by
    obtain ⟨hs, hd, hn, h2, h4, h5, h6, h7, h8, h9, h10, h11, h12⟩ := holds m ρ c (W6 m ρ c) (keep6 m ρ c)
    show Launch1.hostProduct (W6 m ρ c (Proc.devRef .tc main_v47)) (W6 m ρ c (Proc.devRef .tc main_arg5)) = _
    rw [features1 m ρ c, h5]))

/-- The second layer. -/
theorem features2 : W9 m ρ c (Proc.devRef .tc main_v65) = Stages.layer128 (Launch1.hostProduct (Stages.layer128 (Launch0.hostProduct (m ((c : Thread nD τ).loc main_arg0)) (m ((c : Thread nD τ).loc main_arg3))) (Stages.edgeSrc (m ((c : Thread nD τ).loc main_arg1))) (Stages.edgeDst (m ((c : Thread nD τ).loc main_arg1))) (Stages.edgeNorm (Stages.edgeSrc (m ((c : Thread nD τ).loc main_arg1))) (Stages.edgeDst (m ((c : Thread nD τ).loc main_arg1)))) (m ((c : Thread nD τ).loc main_arg4))) (m ((c : Thread nD τ).loc main_arg5))) (Stages.edgeSrc (m ((c : Thread nD τ).loc main_arg1))) (Stages.edgeDst (m ((c : Thread nD τ).loc main_arg1))) (Stages.edgeNorm (Stages.edgeSrc (m ((c : Thread nD τ).loc main_arg1))) (Stages.edgeDst (m ((c : Thread nD τ).loc main_arg1)))) (m ((c : Thread nD τ).loc main_arg6)) :=
  (HostStages.layer_two (W7 m ρ c)).trans (by
    obtain ⟨hs, hd, hn, h2, h4, h5, h6, h7, h8, h9, h10, h11, h12⟩ := holds m ρ c (W7 m ρ c) (keep7 m ρ c)
    rw [product1 m ρ c, hs, hd, hn, h6])

/-- The third launch leaves the host's product of the second layer with the third weight matrix. -/
theorem product2 : W10 m ρ c (Proc.devRef .tc main_v66) = Launch2.hostProduct (Stages.layer128 (Launch1.hostProduct (Stages.layer128 (Launch0.hostProduct (m ((c : Thread nD τ).loc main_arg0)) (m ((c : Thread nD τ).loc main_arg3))) (Stages.edgeSrc (m ((c : Thread nD τ).loc main_arg1))) (Stages.edgeDst (m ((c : Thread nD τ).loc main_arg1))) (Stages.edgeNorm (Stages.edgeSrc (m ((c : Thread nD τ).loc main_arg1))) (Stages.edgeDst (m ((c : Thread nD τ).loc main_arg1)))) (m ((c : Thread nD τ).loc main_arg4))) (m ((c : Thread nD τ).loc main_arg5))) (Stages.edgeSrc (m ((c : Thread nD τ).loc main_arg1))) (Stages.edgeDst (m ((c : Thread nD τ).loc main_arg1))) (Stages.edgeNorm (Stages.edgeSrc (m ((c : Thread nD τ).loc main_arg1))) (Stages.edgeDst (m ((c : Thread nD τ).loc main_arg1)))) (m ((c : Thread nD τ).loc main_arg6))) (m ((c : Thread nD τ).loc main_arg7)) :=
  (W10_arr m ρ c 2).trans ((Launch2.result (V9 m ρ) c).trans (by
    obtain ⟨hs, hd, hn, h2, h4, h5, h6, h7, h8, h9, h10, h11, h12⟩ := holds m ρ c (W9 m ρ c) (keep9 m ρ c)
    show Launch2.hostProduct (W9 m ρ c (Proc.devRef .tc main_v65)) (W9 m ρ c (Proc.devRef .tc main_arg7)) = _
    rw [features2 m ρ c, h7]))

/-- THE RESULT BUFFER after the last stretch: the network around the host's products, of the arguments as launched (a
    launch's product and the host's are the same product of the same two arrays). -/
theorem result : W15 m ρ c (Proc.devRef .tc main_v104)
    = Stages.network (F := Ideal) Stages.hostP Stages.hostP' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (HostStages.layer_three_head (W10 m ρ c)).trans (by
    obtain ⟨hs, hd, hn, h2, h4, h5, h6, h7, h8, h9, h10, h11, h12⟩ := holds m ρ c (W10 m ρ c) (keep10 m ρ c)
    rw [product2 m ρ c, hs, hd, hn, h8, h2, h9, h10, h11, h12]
    rfl)

end Cert.KernelIdeal.Bridge

end
-- ==== Proof.lean ====
/-
  The certificate of the graph network kernel against its reference.

  Both programs are the same network on 50000 nodes and 850000 edges (the 800000 given ones and a self loop per node): the
  edges weighted by the inverse square roots of the in-degrees of their ends; three layers, each the node features times a
  weight matrix, gathered along the edges, weighted, summed at the edges' targets, shifted by a bias and cut at zero; the
  mean over each of the 100 graphs; two small dense layers. They differ in one thing: the reference multiplies the
  50000-row feature matrix by a layer's weight matrix in one host product, the kernel in a launch that walks the rows in
  five blocks of 10000, multiplying each block by the whole weight matrix (after a change of float format that is the
  identity on extended reals) into a zero accumulator. Entry (r, j) of either is the sum over e of feature(r, e) ·
  weight(e, j), and row r lies in exactly one block, so the two products are one array; everything around them is the same
  operations on the same values. No law of arithmetic is used beyond reading the two products as the same finite sum, so
  the inputs' finiteness is not needed.

  The frames of the two kernel programs are the generated ones; the reference's is its run with the result dropped. The
  idealization rewrote nothing, so there is nothing to preserve.
-/
import proofs.«172481_j54889682042891_1_alg».proof.Defs
import proofs.«172481_j54889682042891_1_alg».proof.Proof.Gen.Kernel
import proofs.«172481_j54889682042891_1_alg».proof.Proof.Gen.Kernel.Frame
import proofs.«172481_j54889682042891_1_alg».proof.Proof.Gen.KernelIdeal
import proofs.«172481_j54889682042891_1_alg».proof.Proof.Gen.KernelIdeal.Frame
import proofs.«172481_j54889682042891_1_alg».proof.Proof.Gen.ReferenceIdeal
import proofs.«172481_j54889682042891_1_alg».proof.Proof.Gen.Pre_finite_inputs
import proofs.«172481_j54889682042891_1_alg».proof.Proof.RefRun
import proofs.«172481_j54889682042891_1_alg».proof.Proof.RefValue
import proofs.«172481_j54889682042891_1_alg».proof.Proof.KernelRun
import proofs.«172481_j54889682042891_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no launch: its frame is its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at the network of the arguments around the host's products: the kernel's by
    walking its buffers back through the launches and the host stretches, the reference's by grouping its operations. -/
theorem algebraic : Cert.algebraic_KernelIdeal_ReferenceIdeal := by
  intro m ρ m' ρ' _ hagree
  refine ⟨fun c => Cert.Stages.network (F := Ideal) Cert.Stages.hostP Cert.Stages.hostP'
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Bridge.result m ρ c), (h c).2⟩)
      (Cert.KernelIdeal.Hand.run_named m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.RefValue.result_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
